-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x4 : Shape := ⟨2, ![800000, 4]⟩
abbrev S128x128x4 : Shape := ⟨3, ![128, 128, 4]⟩
abbrev S128x4 : Shape := ⟨2, ![128, 4]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S128x128x4 : S_.BroadcastsInDim S128x128x4 (![] : Fin 0 → Fin S128x128x4.rank)
  reducesTo_S128x128x4_S_d0_1_2 : S128x128x4.ReducesTo [0, 1, 2] S_
  bcast_S_S128x4 : S_.BroadcastsInDim S128x4 (![] : Fin 0 → Fin S128x4.rank)
  reducesTo_S128x4_S_d0_1 : S128x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128x4 1) : IVec S_ 1 :=
  let main_c_5 : IVec S_ 1 := constantI S_ 1 1#1
  let main_v17 : IVec S_ 1 := (fun x v => Host.reduce IntOp.andi x v reducesTo_S128x4_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S800000x4 .f32) (main_arg2 : FVec F S128x128x4 .f32) (main_arg3 : FVec F S128x4 .f32) (main_arg4 : FVec F S128x128 .f32) (main_arg5 : FVec F S128 .f32) (main_arg6 : IVec S800000 32) (main_arg7 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x4 .f32 := Host.absf main_arg1
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S128x128x4 .f32 := Host.absf main_arg2
  let main_cst_2 : FVec F S_ .f32 := constant S_ .f32 0x7F800000#32
  let main_v10 : FVec F S128x128x4 .f32 := broadcastInDim S128x128x4 ![] bcast_S_S128x128x4 main_cst_2
  let main_v11 : IVec S128x128x4 1 := cmpf .olt main_v9 main_v10
  let main_c_3 : IVec S_ 1 := constantI S_ 1 1#1
  let main_v12 : IVec S_ 1 := (fun x v => Host.reduce IntOp.andi x v reducesTo_S128x128x4_S_d0_1_2 h_S_) main_v11 main_c_3
  let main_v13 : IVec S_ 1 := andi main_v8 main_v12
  let main_v14 : FVec F S128x4 .f32 := Host.absf main_arg3
  let main_cst_4 : FVec F S_ .f32 := constant S_ .f32 0x7F800000#32
  let main_v15 : FVec F S128x4 .f32 := broadcastInDim S128x4 ![] bcast_S_S128x4 main_cst_4
  let main_v16 : IVec S128x4 1 := cmpf .olt main_v14 main_v15
  fn_part1 (F := F) main_arg4 main_arg5 main_v13 main_v16
-- ==== Kernel.lean ====
abbrev S50000x128 : Shape := ⟨2, ![50000, 128]⟩
abbrev S800000x4 : Shape := ⟨2, ![800000, 4]⟩
abbrev S128x128x4 : Shape := ⟨3, ![128, 128, 4]⟩
abbrev S128x4 : Shape := ⟨2, ![128, 4]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x50000x128 : Shape := ⟨3, ![1, 50000, 128]⟩
abbrev S4x50000x128 : Shape := ⟨3, ![4, 50000, 128]⟩
abbrev S4x2000x128 : Shape := ⟨3, ![4, 2000, 128]⟩
abbrev S2000x128 : Shape := ⟨2, ![2000, 128]⟩
abbrev S1x2000x128 : Shape := ⟨3, ![1, 2000, 128]⟩
abbrev S128x128x1 : Shape := ⟨3, ![128, 128, 1]⟩
abbrev S128x1 : Shape := ⟨2, ![128, 1]⟩
abbrev S1x128 : Shape := ⟨2, ![1, 128]⟩

abbrev nBuf : Space → Nat
  | .hbm => 52
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000x4, .f32⟩
  | .hbm, ⟨2, _⟩ => ⟨S128x128x4, .f32⟩
  | .hbm, ⟨3, _⟩ => ⟨S128x4, .f32⟩
  | .hbm, ⟨4, _⟩ => ⟨S128x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S800000x1, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S800000x1, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S1x50000x128, .f32⟩
  | .hbm, ⟨46, _⟩ => ⟨S1x50000x128, .f32⟩
  | .hbm, ⟨47, _⟩ => ⟨S1x50000x128, .f32⟩
  | .hbm, ⟨48, _⟩ => ⟨S1x50000x128, .f32⟩
  | .hbm, ⟨49, _⟩ => ⟨S4x50000x128, .f32⟩
  | .hbm, ⟨50, _⟩ => ⟨S128x128, .f32⟩
  | .hbm, ⟨51, _⟩ => ⟨S50000x128, .f32⟩
  | .local _ .vmem, ⟨0, _⟩ => ⟨S4x2000x128, .f32⟩
  | .local _ .vmem, ⟨1, _⟩ => ⟨S4x2000x128, .f32⟩
  | .local _ .vmem, ⟨2, _⟩ => ⟨S128x128x4, .f32⟩
  | .local _ .vmem, ⟨3, _⟩ => ⟨S128x4, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S800000x4_S800000x1_0_0 : S800000x4.Slices ![0, 0] S800000x1
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S800000x4_S800000x1_0_1 : S800000x4.Slices ![0, 1] S800000x1
  slices_S800000x4_S800000x1_0_2 : S800000x4.Slices ![0, 2] S800000x1
  slices_S800000x4_S800000x1_0_3 : S800000x4.Slices ![0, 3] S800000x1
  bcast_S50000x128_S1x50000x128_1_2 : S50000x128.BroadcastsInDim S1x50000x128 (![1, 2] : Fin 2 → Fin S1x50000x128.rank)
  concatenates_S1x50000x128_S1x50000x128_S1x50000x128_S1x50000x128_S4x50000x128_d0 : Shape.Concatenates [S1x50000x128, S1x50000x128, S1x50000x128, S1x50000x128] S4x50000x128 0
  transposes_S128x128_S128x128_1_0 : S128x128.Transposes [1, 0] S128x128
  inb_S4x2000x128_S1x2000x128_0_0_0 : ∀ a, (![0, 0, 0] : Fin 3 → Nat) a + S1x2000x128.size a ≤ S4x2000x128.size a
  h_S1x2000x128 : 0 < S1x2000x128.numel
  shapeCasts_S1x2000x128_S2000x128 : S1x2000x128.ShapeCasts S2000x128
  inb_S128x128x4_S128x128x1_0_0_0 : ∀ a, (![0, 0, 0] : Fin 3 → Nat) a + S128x128x1.size a ≤ S128x128x4.size a
  h_S128x128x1 : 0 < S128x128x1.numel
  shapeCasts_S128x128x1_S128x128 : S128x128x1.ShapeCasts S128x128
  inb_S128x4_S128x1_0_0 : ∀ a, (![0, 0] : Fin 2 → Nat) a + S128x1.size a ≤ S128x4.size a
  h_S128x1 : 0 < S128x1.numel
  shapeCasts_S128x1_S128 : S128x1.ShapeCasts S128
  shapeCasts_S128_S1x128 : S128.ShapeCasts S1x128
  broadcasts_S1x128_S2000x128 : S1x128.Broadcasts S2000x128
  inb_S4x2000x128_S1x2000x128_1_0_0 : ∀ a, (![1, 0, 0] : Fin 3 → Nat) a + S1x2000x128.size a ≤ S4x2000x128.size a
  inb_S128x128x4_S128x128x1_0_0_1 : ∀ a, (![0, 0, 1] : Fin 3 → Nat) a + S128x128x1.size a ≤ S128x128x4.size a
  inb_S128x4_S128x1_0_1 : ∀ a, (![0, 1] : Fin 2 → Nat) a + S128x1.size a ≤ S128x4.size a
  inb_S4x2000x128_S1x2000x128_2_0_0 : ∀ a, (![2, 0, 0] : Fin 3 → Nat) a + S1x2000x128.size a ≤ S4x2000x128.size a
  inb_S128x128x4_S128x128x1_0_0_2 : ∀ a, (![0, 0, 2] : Fin 3 → Nat) a + S128x128x1.size a ≤ S128x128x4.size a
  inb_S128x4_S128x1_0_2 : ∀ a, (![0, 2] : Fin 2 → Nat) a + S128x1.size a ≤ S128x4.size a
  inb_S4x2000x128_S1x2000x128_3_0_0 : ∀ a, (![3, 0, 0] : Fin 3 → Nat) a + S1x2000x128.size a ≤ S4x2000x128.size a
  inb_S128x128x4_S128x128x1_0_0_3 : ∀ a, (![0, 0, 3] : Fin 3 → Nat) a + S128x128x1.size a ≤ S128x128x4.size a
  inb_S128x4_S128x1_0_3 : ∀ a, (![0, 3] : Fin 2 → Nat) a + S128x1.size a ≤ S128x4.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S2000x128_S2000x128_0_0 : ∀ a, (![0, 0] : Fin 2 → Nat) a + S2000x128.size a ≤ S2000x128.size a
  h_S2000x128 : 0 < S2000x128.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2000x128.size a ≤ S4x50000x128.size a
  hwx0_0 : ∀ i : grid0.Coords, EltTy.bits .f32 = 32 ∨ (Rect.block (s := S4x50000x128) S4x2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128x4.size a ≤ S128x128x4.size a
  hwx0_1 : ∀ i : grid0.Coords, EltTy.bits .f32 = 32 ∨ (Rect.block (s := S128x128x4) S128x128x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4.size a ≤ S128x4.size a
  hwx0_2 : ∀ i : grid0.Coords, EltTy.bits .f32 = 32 ∨ (Rect.block (s := S128x4) S128x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v35) S4x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x4 : Shape := ⟨2, ![800000, 4]⟩
abbrev S128x128x4 : Shape := ⟨3, ![128, 128, 4]⟩
abbrev S128x4 : Shape := ⟨2, ![128, 4]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x128x1 : Shape := ⟨3, ![128, 128, 1]⟩
abbrev S128x1 : Shape := ⟨2, ![128, 1]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x4, .f32⟩
  | .hbm, ⟨2, _⟩ => ⟨S128x128x4, .f32⟩
  | .hbm, ⟨3, _⟩ => ⟨S128x4, .f32⟩
  | .hbm, ⟨4, _⟩ => ⟨S128x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S128x128x1, .f32⟩
  | .hbm, ⟨25, _⟩ => ⟨S128x128, .f32⟩
  | .hbm, ⟨26, _⟩ => ⟨S50000x128, .f32⟩
  | .hbm, ⟨27, _⟩ => ⟨S128x1, .f32⟩
  | .hbm, ⟨28, _⟩ => ⟨S128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S800000x1, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S128x128x1, .f32⟩
  | .hbm, ⟨43, _⟩ => ⟨S128x128, .f32⟩
  | .hbm, ⟨44, _⟩ => ⟨S50000x128, .f32⟩
  | .hbm, ⟨45, _⟩ => ⟨S128x1, .f32⟩
  | .hbm, ⟨46, _⟩ => ⟨S128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S800000x1, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S128x128x1, .f32⟩
  | .hbm, ⟨62, _⟩ => ⟨S128x128, .f32⟩
  | .hbm, ⟨63, _⟩ => ⟨S50000x128, .f32⟩
  | .hbm, ⟨64, _⟩ => ⟨S128x1, .f32⟩
  | .hbm, ⟨65, _⟩ => ⟨S128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S800000x1, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S128x128x1, .f32⟩
  | .hbm, ⟨81, _⟩ => ⟨S128x128, .f32⟩
  | .hbm, ⟨82, _⟩ => ⟨S50000x128, .f32⟩
  | .hbm, ⟨83, _⟩ => ⟨S128x1, .f32⟩
  | .hbm, ⟨84, _⟩ => ⟨S128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S128x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call1_cst : Ref sig .tc := ⟨.hbm, 50, rfl⟩
abbrev main_call1_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call2_cst : Ref sig .tc := ⟨.hbm, 69, rfl⟩
abbrev main_call2_v0 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_3 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call3_cst : Ref sig .tc := ⟨.hbm, 88, rfl⟩
abbrev main_call3_v0 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S800000x4_S800000x1_0_0 : S800000x4.Slices ![0, 0] S800000x1
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S128x128x4_S128x128x1_0_0_0 : S128x128x4.Slices ![0, 0, 0] S128x128x1
  shapeCasts_S128x128x1_S128x128 : S128x128x1.ShapeCasts S128x128
  slices_S128x4_S128x1_0_0 : S128x4.Slices ![0, 0] S128x1
  shapeCasts_S128x1_S128 : S128x1.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S800000x4_S800000x1_0_1 : S800000x4.Slices ![0, 1] S800000x1
  slices_S128x128x4_S128x128x1_0_0_1 : S128x128x4.Slices ![0, 0, 1] S128x128x1
  slices_S128x4_S128x1_0_1 : S128x4.Slices ![0, 1] S128x1
  slices_S800000x4_S800000x1_0_2 : S800000x4.Slices ![0, 2] S800000x1
  slices_S128x128x4_S128x128x1_0_0_2 : S128x128x4.Slices ![0, 0, 2] S128x128x1
  slices_S128x4_S128x1_0_2 : S128x4.Slices ![0, 2] S128x1
  slices_S800000x4_S800000x1_0_3 : S800000x4.Slices ![0, 3] S800000x1
  slices_S128x128x4_S128x128x1_0_0_3 : S128x128x4.Slices ![0, 0, 3] S128x128x1
  slices_S128x4_S128x1_0_3 : S128x4.Slices ![0, 3] S128x1
  transposes_S128x128_S128x128_1_0 : S128x128.Transposes [1, 0] S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.FrameBits.lean ====
/-
  The frame of `Kernel`: @main is forty-three host operations and then one region over a grid of 25 points.
  The region's six windows are: the stacked per-channel aggregates [4, 50000, 128], read in blocks of 2000 rows
  (all four channels of rows 2000·t … 2000·t + 1999 at point t); the channel weights [128, 128, 4], the channel
  biases [128, 4], the transposed final weights [128, 128] and the final bias [128], each one whole block that
  never moves; and the result [50000, 128], written in blocks of 2000 rows.
  The body reads its five input blocks through fixed rectangles, computes one [2000, 128] value and stores it
  over the whole output block. So after the body the output buffer is that value as a function of the five input
  blocks (`rowsOut`), every input buffer still holds its block, and the run of the pipeline leaves every array
  that is an argument of @main as it was.
-/
import proofs.«111348_j6519760355566_1_alg».proof.Proof.Gen.Kernel.Launch
import proofs.«111348_j6519760355566_1_alg».proof.Proof.Gen.Kernel.Skeleton
import proofs.«111348_j6519760355566_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region starts: the launch contents pushed through the host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An argument of @main is the result of no host operation, so the region finds it as launched. -/
theorem V_arg (c : Dev nD) (a : Ref sig .tc)
    (ha : a = main_arg0 ∨ a = main_arg1 ∨ a = main_arg2 ∨ a = main_arg3 ∨ a = main_arg4 ∨ a = main_arg5 ∨ a = main_arg6 ∨ a = main_arg7) :
    V m c a = m ((c : Thread nD τ).loc a) :=
  StableHlo.after_of_forall_not_mem (b := Proc.devRef .tc a) _ _ (List.forall_iff_forall_mem.mp (by
    simp only [hostOps0, List.Forall, StableHlo.nullary_writes, StableHlo.unary_writes, StableHlo.binary_writes,
      StableHlo.ternary_writes, StableHlo.nary_writes, Finset.mem_singleton]
    rcases ha with h | h | h | h | h | h | h | h <;> subst h <;>
      (repeat' apply And.intro) <;> exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input windows 0 … 4 hold their blocks at every point. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's run to the frame claim -/

/-- A final state in which every window's array is at what the proof data says, and every other buffer as the
    region found it, has the eight arguments as launched: three of them are arrays of input windows (the channel
    weights, the channel biases, the final bias), which the pipeline only reads; the other five are touched by no
    window. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_arg m c main_arg0 (Or.inl rfl)),
      ((h c).2 main_arg1 (Pipeline.mem_restRefs_of main_arg1 (by decide) (by decide))).trans (V_arg m c main_arg1 (Or.inr (Or.inl rfl))),
      ((h c).1 1).trans (((dats 0 c).arrAt_in 1 rfl _).trans ((hA c 1).trans (V_arg m c main_arg2 (Or.inr (Or.inr (Or.inl rfl)))))),
      ((h c).1 2).trans (((dats 0 c).arrAt_in 2 rfl _).trans ((hA c 2).trans (V_arg m c main_arg3 (Or.inr (Or.inr (Or.inr (Or.inl rfl))))))),
      ((h c).2 main_arg4 (Pipeline.mem_restRefs_of main_arg4 (by decide) (by decide))).trans (V_arg m c main_arg4 (Or.inr (Or.inr (Or.inr (Or.inr (Or.inl rfl)))))),
      ((h c).1 4).trans (((dats 0 c).arrAt_in 4 rfl _).trans ((hA c 4).trans (V_arg m c main_arg5 (Or.inr (Or.inr (Or.inr (Or.inr (Or.inr (Or.inl rfl))))))))),
      ((h c).2 main_arg6 (Pipeline.mem_restRefs_of main_arg6 (by decide) (by decide))).trans (V_arg m c main_arg6 (Or.inr (Or.inr (Or.inr (Or.inr (Or.inr (Or.inr (Or.inl rfl)))))))),
      ((h c).2 main_arg7 (Pipeline.mem_restRefs_of main_arg7 (by decide) (by decide))).trans (V_arg m c main_arg7 (Or.inr (Or.inr (Or.inr (Or.inr (Or.inr (Or.inr (Or.inr (rfl)))))))))⟩

/-- So a run of @main to such a state is the frame claim's run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m dats hA r h c) h

/-! ## The rectangles the body reads and writes -/

/-- Channel `k`'s 2000 rows of the aggregate block. -/
abbrev rAgg0 : Rect S4x2000x128 := Rect.unit (s := S4x2000x128) ![0, 0, 0] S1x2000x128.size inb_S4x2000x128_S1x2000x128_0_0_0
abbrev rAgg1 : Rect S4x2000x128 := Rect.unit (s := S4x2000x128) ![1, 0, 0] S1x2000x128.size inb_S4x2000x128_S1x2000x128_1_0_0
abbrev rAgg2 : Rect S4x2000x128 := Rect.unit (s := S4x2000x128) ![2, 0, 0] S1x2000x128.size inb_S4x2000x128_S1x2000x128_2_0_0
abbrev rAgg3 : Rect S4x2000x128 := Rect.unit (s := S4x2000x128) ![3, 0, 0] S1x2000x128.size inb_S4x2000x128_S1x2000x128_3_0_0
/-- Channel `k`'s weight matrix. -/
abbrev rW0 : Rect S128x128x4 := Rect.unit (s := S128x128x4) ![0, 0, 0] S128x128x1.size inb_S128x128x4_S128x128x1_0_0_0
abbrev rW1 : Rect S128x128x4 := Rect.unit (s := S128x128x4) ![0, 0, 1] S128x128x1.size inb_S128x128x4_S128x128x1_0_0_1
abbrev rW2 : Rect S128x128x4 := Rect.unit (s := S128x128x4) ![0, 0, 2] S128x128x1.size inb_S128x128x4_S128x128x1_0_0_2
abbrev rW3 : Rect S128x128x4 := Rect.unit (s := S128x128x4) ![0, 0, 3] S128x128x1.size inb_S128x128x4_S128x128x1_0_0_3
/-- Channel `k`'s bias column. -/
abbrev rB0 : Rect S128x4 := Rect.unit (s := S128x4) ![0, 0] S128x1.size inb_S128x4_S128x1_0_0
abbrev rB1 : Rect S128x4 := Rect.unit (s := S128x4) ![0, 1] S128x1.size inb_S128x4_S128x1_0_1
abbrev rB2 : Rect S128x4 := Rect.unit (s := S128x4) ![0, 2] S128x1.size inb_S128x4_S128x1_0_2
abbrev rB3 : Rect S128x4 := Rect.unit (s := S128x4) ![0, 3] S128x1.size inb_S128x4_S128x1_0_3
/-- The whole final weight matrix, the whole final bias, the whole output block. -/
abbrev rFw : Rect S128x128 := Rect.unit (s := S128x128) ![0, 0] S128x128.size inb_S128x128_S128x128_0_0
abbrev rFb : Rect S128 := Rect.unit (s := S128) ![0] S128.size inb_S128_S128_0
abbrev rOut : Rect S2000x128 := Rect.unit (s := S2000x128) ![0, 0] S2000x128.size inb_S2000x128_S2000x128_0_0

/-! ## What the body leaves in the output block -/

/-- The value the body stores: the skeleton's payload of the sixteen loads. -/
def rowsVal (x0 : Vec F S4x2000x128 .f32) (x1 : Vec F S128x128x4 .f32) (x2 : Vec F S128x4 .f32) (x3 : Vec F S128x128 .f32) (x4 : Vec F S128 .f32) :
    Vec F S2000x128 .f32 :=
  k0_pay1 (k0_pay2 (View.ld x0 rAgg0) (View.ld x1 rW0) (View.ld x2 rB0) (View.ld x0 rAgg1) (View.ld x1 rW1) (View.ld x2 rB1))
    (k0_pay3 (View.ld x0 rAgg2)) (k0_pay4 (View.ld x1 rW2)) (constant S2000x128 .f32 0x00000000#32)
    (View.ld x2 rB2) (View.ld x0 rAgg3) (View.ld x1 rW3) (View.ld x2 rB3) (View.ld x3 rFw) (View.ld x4 rFb)

/-- The output buffer after the body: its one store, over the whole block. -/
def rowsOut (x0 : Vec F S4x2000x128 .f32) (x1 : Vec F S128x128x4 .f32) (x2 : Vec F S128x4 .f32) (x3 : Vec F S128x128 .f32) (x4 : Vec F S128 .f32) :
    Vec F S2000x128 .f32 :=
  View.canon [⟨rOut, rowsVal x0 x1 x2 x3 x4⟩]

/-- The one store covers the block. -/
theorem cover_out (p0 : Vec F S2000x128 .f32) (y : S2000x128.Idx) :
    ∃ pc ∈ ([⟨rOut, p0⟩] : List (View.Piece (Elt F) S2000x128 .f32)), y ∈ pc.1.set :=
  View.cover_of_tiled [⟨rOut, p0⟩] S2000x128.size (by rfl) y

/-! ## The body's triple -/

set_option maxHeartbeats 1000000 in
/-- The body, run on whole buffers holding `x0 … x4` (inputs) and anything (output), ends with the inputs as they
    were and the output at `rowsOut x0 … x4`. -/
theorem sound_kernel (c : Dev nD) (E : Set ℕ) (i : grid0.Coords)
    (arg1 : Memref sig .tc .vmem S4x2000x128 .f32) (harg1 : arg1.IsWhole) (arg2 : Memref sig .tc .vmem S128x128x4 .f32) (harg2 : arg2.IsWhole)
    (arg3 : Memref sig .tc .vmem S128x4 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S2000x128 .f32) (harg6 : arg6.IsWhole)
    (x0 : Vec F S4x2000x128 .f32) (x1 : Vec F S128x128x4 .f32) (x2 : Vec F S128x4 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (rowsOut x0 x1 x2 x3 x4)) -∗ K ⟨⟩))
      ⊢ wp frame (wpE (defs₀ (F := F)) Variants.none c none) E (cc0__merge_kernel i arg1 harg1 arg2 harg2 arg3 harg3 arg4 harg4 arg5 harg5 arg6 harg6) K := by
  simp only [cc0__merge_kernel_eq_skeleton]; unfold cc0__merge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _)

/-! ## The pipeline's proof data -/

/-- The proof data on core `c`: the arrays as the region finds them; after the body at point `t` each input
    buffer still at its block and the output buffer at `rowsOut` of the five input blocks; the invariant is the
    untouched rest (no scratch, the generator register); nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rowsOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
/-- What point `t` leaves in the output buffer. -/
theorem after_out (c : Dev nD) (t : Fin cfg0.N) :
    (dats m 0 c).after 5 t = rowsOut (iblk m c 0 t) (iblk m c 1 t) (iblk m c 2 t) (iblk m c 3 t) (iblk m c 4 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the invariant and
    the core's duties pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, every window's array ending at what the
    proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim of `Kernel`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Frame

end
-- ==== Proof.FrameIdeal.lean ====
/-
  The frame of `KernelIdeal`: @main is forty-three host operations and then one region over a grid of 25 points.
  The region's six windows are: the stacked per-channel aggregates [4, 50000, 128], read in blocks of 2000 rows
  (all four channels of rows 2000·t … 2000·t + 1999 at point t); the channel weights [128, 128, 4], the channel
  biases [128, 4], the transposed final weights [128, 128] and the final bias [128], each one whole block that
  never moves; and the result [50000, 128], written in blocks of 2000 rows.
  The body reads its five input blocks through fixed rectangles, computes one [2000, 128] value and stores it
  over the whole output block. So after the body the output buffer is that value as a function of the five input
  blocks (`rowsOut`), every input buffer still holds its block, and the run of the pipeline leaves every array
  that is an argument of @main as it was.
-/
import proofs.«111348_j6519760355566_1_alg».proof.Proof.Gen.KernelIdeal.Launch
import proofs.«111348_j6519760355566_1_alg».proof.Proof.Gen.KernelIdeal.Skeleton
import proofs.«111348_j6519760355566_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region starts: the launch contents pushed through the host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An argument of @main is the result of no host operation, so the region finds it as launched. -/
theorem V_arg (c : Dev nD) (a : Ref sig .tc)
    (ha : a = main_arg0 ∨ a = main_arg1 ∨ a = main_arg2 ∨ a = main_arg3 ∨ a = main_arg4 ∨ a = main_arg5 ∨ a = main_arg6 ∨ a = main_arg7) :
    V m c a = m ((c : Thread nD τ).loc a) :=
  StableHlo.after_of_forall_not_mem (b := Proc.devRef .tc a) _ _ (List.forall_iff_forall_mem.mp (by
    simp only [hostOps0, List.Forall, StableHlo.nullary_writes, StableHlo.unary_writes, StableHlo.binary_writes,
      StableHlo.ternary_writes, StableHlo.nary_writes, Finset.mem_singleton]
    rcases ha with h | h | h | h | h | h | h | h <;> subst h <;>
      (repeat' apply And.intro) <;> exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input windows 0 … 4 hold their blocks at every point. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's run to the frame claim -/

/-- A final state in which every window's array is at what the proof data says, and every other buffer as the
    region found it, has the eight arguments as launched: three of them are arrays of input windows (the channel
    weights, the channel biases, the final bias), which the pipeline only reads; the other five are touched by no
    window. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_arg m c main_arg0 (Or.inl rfl)),
      ((h c).2 main_arg1 (Pipeline.mem_restRefs_of main_arg1 (by decide) (by decide))).trans (V_arg m c main_arg1 (Or.inr (Or.inl rfl))),
      ((h c).1 1).trans (((dats 0 c).arrAt_in 1 rfl _).trans ((hA c 1).trans (V_arg m c main_arg2 (Or.inr (Or.inr (Or.inl rfl)))))),
      ((h c).1 2).trans (((dats 0 c).arrAt_in 2 rfl _).trans ((hA c 2).trans (V_arg m c main_arg3 (Or.inr (Or.inr (Or.inr (Or.inl rfl))))))),
      ((h c).2 main_arg4 (Pipeline.mem_restRefs_of main_arg4 (by decide) (by decide))).trans (V_arg m c main_arg4 (Or.inr (Or.inr (Or.inr (Or.inr (Or.inl rfl)))))),
      ((h c).1 4).trans (((dats 0 c).arrAt_in 4 rfl _).trans ((hA c 4).trans (V_arg m c main_arg5 (Or.inr (Or.inr (Or.inr (Or.inr (Or.inr (Or.inl rfl))))))))),
      ((h c).2 main_arg6 (Pipeline.mem_restRefs_of main_arg6 (by decide) (by decide))).trans (V_arg m c main_arg6 (Or.inr (Or.inr (Or.inr (Or.inr (Or.inr (Or.inr (Or.inl rfl)))))))),
      ((h c).2 main_arg7 (Pipeline.mem_restRefs_of main_arg7 (by decide) (by decide))).trans (V_arg m c main_arg7 (Or.inr (Or.inr (Or.inr (Or.inr (Or.inr (Or.inr (Or.inr (rfl)))))))))⟩

/-- So a run of @main to such a state is the frame claim's run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m dats hA r h c) h

/-! ## The rectangles the body reads and writes -/

/-- Channel `k`'s 2000 rows of the aggregate block. -/
abbrev rAgg0 : Rect S4x2000x128 := Rect.unit (s := S4x2000x128) ![0, 0, 0] S1x2000x128.size inb_S4x2000x128_S1x2000x128_0_0_0
abbrev rAgg1 : Rect S4x2000x128 := Rect.unit (s := S4x2000x128) ![1, 0, 0] S1x2000x128.size inb_S4x2000x128_S1x2000x128_1_0_0
abbrev rAgg2 : Rect S4x2000x128 := Rect.unit (s := S4x2000x128) ![2, 0, 0] S1x2000x128.size inb_S4x2000x128_S1x2000x128_2_0_0
abbrev rAgg3 : Rect S4x2000x128 := Rect.unit (s := S4x2000x128) ![3, 0, 0] S1x2000x128.size inb_S4x2000x128_S1x2000x128_3_0_0
/-- Channel `k`'s weight matrix. -/
abbrev rW0 : Rect S128x128x4 := Rect.unit (s := S128x128x4) ![0, 0, 0] S128x128x1.size inb_S128x128x4_S128x128x1_0_0_0
abbrev rW1 : Rect S128x128x4 := Rect.unit (s := S128x128x4) ![0, 0, 1] S128x128x1.size inb_S128x128x4_S128x128x1_0_0_1
abbrev rW2 : Rect S128x128x4 := Rect.unit (s := S128x128x4) ![0, 0, 2] S128x128x1.size inb_S128x128x4_S128x128x1_0_0_2
abbrev rW3 : Rect S128x128x4 := Rect.unit (s := S128x128x4) ![0, 0, 3] S128x128x1.size inb_S128x128x4_S128x128x1_0_0_3
/-- Channel `k`'s bias column. -/
abbrev rB0 : Rect S128x4 := Rect.unit (s := S128x4) ![0, 0] S128x1.size inb_S128x4_S128x1_0_0
abbrev rB1 : Rect S128x4 := Rect.unit (s := S128x4) ![0, 1] S128x1.size inb_S128x4_S128x1_0_1
abbrev rB2 : Rect S128x4 := Rect.unit (s := S128x4) ![0, 2] S128x1.size inb_S128x4_S128x1_0_2
abbrev rB3 : Rect S128x4 := Rect.unit (s := S128x4) ![0, 3] S128x1.size inb_S128x4_S128x1_0_3
/-- The whole final weight matrix, the whole final bias, the whole output block. -/
abbrev rFw : Rect S128x128 := Rect.unit (s := S128x128) ![0, 0] S128x128.size inb_S128x128_S128x128_0_0
abbrev rFb : Rect S128 := Rect.unit (s := S128) ![0] S128.size inb_S128_S128_0
abbrev rOut : Rect S2000x128 := Rect.unit (s := S2000x128) ![0, 0] S2000x128.size inb_S2000x128_S2000x128_0_0

/-! ## What the body leaves in the output block -/

/-- The value the body stores: the skeleton's payload of the sixteen loads. -/
def rowsVal (x0 : Vec F S4x2000x128 .f32) (x1 : Vec F S128x128x4 .f32) (x2 : Vec F S128x4 .f32) (x3 : Vec F S128x128 .f32) (x4 : Vec F S128 .f32) :
    Vec F S2000x128 .f32 :=
  k0_pay1 (k0_pay2 (View.ld x0 rAgg0) (View.ld x1 rW0) (View.ld x2 rB0) (View.ld x0 rAgg1) (View.ld x1 rW1) (View.ld x2 rB1))
    (k0_pay3 (View.ld x0 rAgg2)) (k0_pay4 (View.ld x1 rW2)) (constant S2000x128 .f32 0x00000000#32)
    (View.ld x2 rB2) (View.ld x0 rAgg3) (View.ld x1 rW3) (View.ld x2 rB3) (View.ld x3 rFw) (View.ld x4 rFb)

/-- The output buffer after the body: its one store, over the whole block. -/
def rowsOut (x0 : Vec F S4x2000x128 .f32) (x1 : Vec F S128x128x4 .f32) (x2 : Vec F S128x4 .f32) (x3 : Vec F S128x128 .f32) (x4 : Vec F S128 .f32) :
    Vec F S2000x128 .f32 :=
  View.canon [⟨rOut, rowsVal x0 x1 x2 x3 x4⟩]

/-- The one store covers the block. -/
theorem cover_out (p0 : Vec F S2000x128 .f32) (y : S2000x128.Idx) :
    ∃ pc ∈ ([⟨rOut, p0⟩] : List (View.Piece (Elt F) S2000x128 .f32)), y ∈ pc.1.set :=
  View.cover_of_tiled [⟨rOut, p0⟩] S2000x128.size (by rfl) y

/-! ## The body's triple -/

set_option maxHeartbeats 1000000 in
/-- The body, run on whole buffers holding `x0 … x4` (inputs) and anything (output), ends with the inputs as they
    were and the output at `rowsOut x0 … x4`. -/
theorem sound_kernel (c : Dev nD) (E : Set ℕ) (i : grid0.Coords)
    (arg1 : Memref sig .tc .vmem S4x2000x128 .f32) (harg1 : arg1.IsWhole) (arg2 : Memref sig .tc .vmem S128x128x4 .f32) (harg2 : arg2.IsWhole)
    (arg3 : Memref sig .tc .vmem S128x4 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S2000x128 .f32) (harg6 : arg6.IsWhole)
    (x0 : Vec F S4x2000x128 .f32) (x1 : Vec F S128x128x4 .f32) (x2 : Vec F S128x4 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (rowsOut x0 x1 x2 x3 x4)) -∗ K ⟨⟩))
      ⊢ wp frame (wpE (defs₀ (F := F)) Variants.none c none) E (cc0__merge_kernel i arg1 harg1 arg2 harg2 arg3 harg3 arg4 harg4 arg5 harg5 arg6 harg6) K := by
  simp only [cc0__merge_kernel_eq_skeleton]; unfold cc0__merge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _)

/-! ## The pipeline's proof data -/

/-- The proof data on core `c`: the arrays as the region finds them; after the body at point `t` each input
    buffer still at its block and the output buffer at `rowsOut` of the five input blocks; the invariant is the
    untouched rest (no scratch, the generator register); nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rowsOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
/-- What point `t` leaves in the output buffer. -/
theorem after_out (c : Dev nD) (t : Fin cfg0.N) :
    (dats m 0 c).after 5 t = rowsOut (iblk m c 0 t) (iblk m c 1 t) (iblk m c 2 t) (iblk m c 3 t) (iblk m c 4 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the invariant and
    the core's duties pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, every window's array ending at what the
    proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim of `KernelIdeal`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Frame

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«111348_j6519760355566_1_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.LibTrailingUnit.lean ====
/-
  A trailing unit axis dropped by a shape cast, read at an index.

  A kernel that loads a `[a, b, 1]` piece of an `[a, b, c]` array (one slice along the last axis) or an `[a, 1]` column
  of an `[a, c]` array casts it to `[a, b]`, respectively `[a]`. Neither cast moves a value: the row-major position of
  `(i, j, 0)` in `[a, b, 1]` is that of `(i, j)` in `[a, b]`, and likewise for the column.
-/
import Idealize.ShloMosaic.Lib.ValueIdx
import Idealize.ShloMosaic.Lib.Pipeline.Value

noncomputable section

namespace Idealize.ShloMosaic.TrailingUnit

open Idealize.ShloMosaic Idealize.ShloMosaic.ValueIdx

variable {α : Type}

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.TrailingUnit

end
-- ==== Proof.Spec.lean ====
/-
  The function both programs compute, entry by entry, over the extended reals.

  For a node `p` and an output feature `q`:
    channel c at (p, k)  =  max (Σ j, A c p j · W j k c + B k c) 0        (one dense layer and a rectifier per channel)
    merged at (p, k)     =  ((channel 0 + channel 1) + channel 2) + channel 3
    entry at (p, q)      =  Σ k, merged (p, k) · Ft k q + fb q             (the final dense layer)
  `A c` is channel `c`'s aggregated messages, `W`, `B` the channel weights and biases, `Ft` the final weights
  already transposed, `fb` the final bias. Nothing here needs a finite input: the two programs perform the same
  sums and products in the same order, except that one of them starts its channel sum from zero.
-/
import Idealize.ShloMosaic.PureOps.Ideal.Laws

noncomputable section

namespace Cert.MergeSpec

open Idealize.ShloMosaic

/-- The float word of `+0.0`, which both programs clamp against. -/
abbrev zeroWord : EReal := Ideal.ofBits .f32 0x00000000#32

theorem zeroWord_eq : zeroWord = 0 := Ideal.ofBits_zero_f32

variable {R : ℕ}

/-- One channel's dense layer and rectifier at node `p`, hidden feature `k`. -/
def channel (A : Fin 4 → Fin R → Fin 128 → EReal) (W : Fin 128 → Fin 128 → Fin 4 → EReal) (B : Fin 128 → Fin 4 → EReal)
    (c : Fin 4) (p : Fin R) (k : Fin 128) : EReal :=
  max ((∑ j : Fin 128, A c p j * W j k c) + B k c) zeroWord

/-- The four channels summed, left to right. -/
def merged (A : Fin 4 → Fin R → Fin 128 → EReal) (W : Fin 128 → Fin 128 → Fin 4 → EReal) (B : Fin 128 → Fin 4 → EReal)
    (p : Fin R) (k : Fin 128) : EReal :=
  ((channel A W B 0 p k + channel A W B 1 p k) + channel A W B 2 p k) + channel A W B 3 p k

/-- The final dense layer at node `p`, output feature `q`. -/
def entry (A : Fin 4 → Fin R → Fin 128 → EReal) (W : Fin 128 → Fin 128 → Fin 4 → EReal) (B : Fin 128 → Fin 4 → EReal)
    (Ft : Fin 128 → Fin 128 → EReal) (fb : Fin 128 → EReal) (p : Fin R) (q : Fin 128) : EReal :=
  (∑ k : Fin 128, merged A W B p k * Ft k q) + fb q

/-- A sum that starts from the zero word is the sum: `0 + x = x` on the extended reals, infinities included. -/
theorem merged_from_zero (A : Fin 4 → Fin R → Fin 128 → EReal) (W : Fin 128 → Fin 128 → Fin 4 → EReal) (B : Fin 128 → Fin 4 → EReal)
    (p : Fin R) (k : Fin 128) :
    (((zeroWord + channel A W B 0 p k) + channel A W B 1 p k) + channel A W B 2 p k) + channel A W B 3 p k = merged A W B p k := by
  unfold merged; rw [zeroWord_eq, zero_add]

/-- The entry at a node depends on the aggregates only through that node's rows, on the final weights only through
    the output feature's column and on the final bias only through its entry there: two sets of data that agree on
    those (and on the channel weights and biases) give the same entry. -/
theorem entry_congr {R' : ℕ} (A : Fin 4 → Fin R → Fin 128 → EReal) (A' : Fin 4 → Fin R' → Fin 128 → EReal)
    (W W' : Fin 128 → Fin 128 → Fin 4 → EReal) (B B' : Fin 128 → Fin 4 → EReal) (Ft Ft' : Fin 128 → Fin 128 → EReal)
    (fb fb' : Fin 128 → EReal) (p : Fin R) (p' : Fin R') (q q' : Fin 128)
    (hA : ∀ c j, A c p j = A' c p' j) (hW : ∀ j k c, W j k c = W' j k c) (hB : ∀ k c, B k c = B' k c)
    (hFt : ∀ k, Ft k q = Ft' k q') (hfb : fb q = fb' q') :
    entry A W B Ft fb p q = entry A' W' B' Ft' fb' p' q' := by
  unfold entry merged channel
  simp only [hA, hW, hB, hFt, hfb]

end Cert.MergeSpec

end
-- ==== Proof.KernelBlock.lean ====
/-
  The value the body stores, entry by entry.

  At a grid point the body holds a block of the stacked aggregates, `x0 : [4, 2000, 128]` (all four channels of 2000
  nodes), the channel weights `x1 : [128, 128, 4]`, the channel biases `x2 : [128, 4]`, the transposed final weights
  `x3 : [128, 128]` and the final bias `x4 : [128]`. Entry `(p, q)` of what it stores is the specification's `entry`
  of those blocks: per channel a product into a zero accumulator plus the bias row, clamped below by zero; the four
  channels added up starting from a zero block; then one more product plus the final bias row. Over the extended
  reals each product into zero is a plain sum over the contracted axis, and the leading zero of the channel sum
  disappears.
-/
import proofs.«111348_j6519760355566_1_alg».proof.Proof.FrameIdeal
import proofs.«111348_j6519760355566_1_alg».proof.Proof.LibDenseLayer
import proofs.«111348_j6519760355566_1_alg».proof.Proof.LibTrailingUnit
import proofs.«111348_j6519760355566_1_alg».proof.Proof.Spec
import Idealize.ShloMosaic.Lib.ValueLayout
import Idealize.ShloMosaic.Lib.Pipeline.Value

set_option maxRecDepth 16384

noncomputable section

namespace Cert.KernelIdeal.Block

open Cert.KernelIdeal Cert.KernelIdeal.Gen Cert.KernelIdeal.Frame Cert.MergeSpec
open Idealize.ShloMosaic Idealize.ShloMosaic.ValueIdx Idealize.ShloMosaic.DenseBlock Idealize.ShloMosaic.DenseLayer
open Idealize.ShloMosaic.TrailingUnit

/-- One channel on loaded pieces: a `[1, 2000, 128]` piece of the aggregates, a `[128, 128, 1]` piece of the weights
    and a `[128, 1]` column of the biases. Entry `(p, k)` is `max (Σ j, X (0, p, j) · W (j, k, 0) + b (k, 0)) 0`. -/
theorem channel_piece (X3 : FVec Ideal S1x2000x128 .f32) (W3 : FVec Ideal S128x128x1 .f32) (b2 : FVec Ideal S128x1 .f32)
    (p : Fin 2000) (k : Fin 128) :
    maximumf (addf (matmul dot_S2000x128_S128x128_S2000x128_1_0_0_1_n_n none (shapeCast S2000x128 X3 shapeCasts_S1x2000x128_S2000x128)
          (shapeCast S128x128 W3 shapeCasts_S128x128x1_S128x128) (constant S2000x128 .f32 0x00000000#32))
        (broadcastTo S2000x128 (shapeCast S1x128 (shapeCast S128 b2 shapeCasts_S128x1_S128) shapeCasts_S128_S1x128) broadcasts_S1x128_S2000x128))
      (broadcast S2000x128 (Scalar.ofBits (F := Ideal) .f32 0x00000000#32)) (ix2 p k)
    = max ((∑ j : Fin 128, X3 (ix3 (0 : Fin 1) p j) * W3 (ix3 j k (0 : Fin 1))) + b2 (ix2 k (0 : Fin 1))) zeroWord := by
  rw [maximumf_apply]
  refine congrArg (fun v : EReal => max v zeroWord) ?_
  refine (affine_apply dot_S2000x128_S128x128_S2000x128_1_0_0_1_n_n_wf _ _ _ broadcasts_S1x128_S2000x128 p k).trans ?_
  rw [shapeCast_a_1a_apply, shapeCast_a1_a_apply]
  refine congrArg (· + b2 (ix2 k (0 : Fin 1))) (Finset.sum_congr rfl fun j _ => ?_)
  rw [shapeCast_1ab_ab_apply, shapeCast_ab1_ab_apply]

/-! ## The rectangles the body loads through, at an index -/

theorem rAgg0_idx (p : Fin 2000) (j : Fin 128) : rAgg0.idx (ix3 (0 : Fin 1) p j) = ix3 (0 : Fin 4) p j :=
  funext fun a => Fin.ext (by
    match a with
    | ⟨0, _⟩ => rfl
    | ⟨1, _⟩ => show 0 + 1 * p.val = p.val; omega
    | ⟨2, _⟩ => show 0 + 1 * j.val = j.val; omega)
theorem rW0_idx (j k : Fin 128) : rW0.idx (ix3 j k (0 : Fin 1)) = ix3 j k (0 : Fin 4) :=
  funext fun a => Fin.ext (by
    match a with
    | ⟨0, _⟩ => show 0 + 1 * j.val = j.val; omega
    | ⟨1, _⟩ => show 0 + 1 * k.val = k.val; omega
    | ⟨2, _⟩ => rfl)
theorem rB0_idx (k : Fin 128) : rB0.idx (ix2 k (0 : Fin 1)) = ix2 k (0 : Fin 4) :=
  funext fun a => Fin.ext (by
    match a with
    | ⟨0, _⟩ => show 0 + 1 * k.val = k.val; omega
    | ⟨1, _⟩ => rfl)
theorem rAgg1_idx (p : Fin 2000) (j : Fin 128) : rAgg1.idx (ix3 (0 : Fin 1) p j) = ix3 (1 : Fin 4) p j :=
  funext fun a => Fin.ext (by
    match a with
    | ⟨0, _⟩ => rfl
    | ⟨1, _⟩ => show 0 + 1 * p.val = p.val; omega
    | ⟨2, _⟩ => show 0 + 1 * j.val = j.val; omega)
theorem rW1_idx (j k : Fin 128) : rW1.idx (ix3 j k (0 : Fin 1)) = ix3 j k (1 : Fin 4) :=
  funext fun a => Fin.ext (by
    match a with
    | ⟨0, _⟩ => show 0 + 1 * j.val = j.val; omega
    | ⟨1, _⟩ => show 0 + 1 * k.val = k.val; omega
    | ⟨2, _⟩ => rfl)
theorem rB1_idx (k : Fin 128) : rB1.idx (ix2 k (0 : Fin 1)) = ix2 k (1 : Fin 4) :=
  funext fun a => Fin.ext (by
    match a with
    | ⟨0, _⟩ => show 0 + 1 * k.val = k.val; omega
    | ⟨1, _⟩ => rfl)
theorem rAgg2_idx (p : Fin 2000) (j : Fin 128) : rAgg2.idx (ix3 (0 : Fin 1) p j) = ix3 (2 : Fin 4) p j :=
  funext fun a => Fin.ext (by
    match a with
    | ⟨0, _⟩ => rfl
    | ⟨1, _⟩ => show 0 + 1 * p.val = p.val; omega
    | ⟨2, _⟩ => show 0 + 1 * j.val = j.val; omega)
theorem rW2_idx (j k : Fin 128) : rW2.idx (ix3 j k (0 : Fin 1)) = ix3 j k (2 : Fin 4) :=
  funext fun a => Fin.ext (by
    match a with
    | ⟨0, _⟩ => show 0 + 1 * j.val = j.val; omega
    | ⟨1, _⟩ => show 0 + 1 * k.val = k.val; omega
    | ⟨2, _⟩ => rfl)
theorem rB2_idx (k : Fin 128) : rB2.idx (ix2 k (0 : Fin 1)) = ix2 k (2 : Fin 4) :=
  funext fun a => Fin.ext (by
    match a with
    | ⟨0, _⟩ => show 0 + 1 * k.val = k.val; omega
    | ⟨1, _⟩ => rfl)
theorem rAgg3_idx (p : Fin 2000) (j : Fin 128) : rAgg3.idx (ix3 (0 : Fin 1) p j) = ix3 (3 : Fin 4) p j :=
  funext fun a => Fin.ext (by
    match a with
    | ⟨0, _⟩ => rfl
    | ⟨1, _⟩ => show 0 + 1 * p.val = p.val; omega
    | ⟨2, _⟩ => show 0 + 1 * j.val = j.val; omega)
theorem rW3_idx (j k : Fin 128) : rW3.idx (ix3 j k (0 : Fin 1)) = ix3 j k (3 : Fin 4) :=
  funext fun a => Fin.ext (by
    match a with
    | ⟨0, _⟩ => show 0 + 1 * j.val = j.val; omega
    | ⟨1, _⟩ => show 0 + 1 * k.val = k.val; omega
    | ⟨2, _⟩ => rfl)
theorem rB3_idx (k : Fin 128) : rB3.idx (ix2 k (0 : Fin 1)) = ix2 k (3 : Fin 4) :=
  funext fun a => Fin.ext (by
    match a with
    | ⟨0, _⟩ => show 0 + 1 * k.val = k.val; omega
    | ⟨1, _⟩ => rfl)

theorem zeros2 : (![0, 0] : Fin 2 → Nat) = fun _ => 0 := funext fun a => by fin_cases a <;> rfl
theorem zeros1 : (![0] : Fin 1 → Nat) = fun _ => 0 := funext fun a => by fin_cases a; rfl

/-! ## The stored value at an entry -/

set_option maxHeartbeats 1000000 in
/-- Entry `(p, q)` of what the body stores is the specification's `entry` of the five blocks. -/
theorem rowsVal_apply (x0 : Vec Ideal S4x2000x128 .f32) (x1 : Vec Ideal S128x128x4 .f32) (x2 : Vec Ideal S128x4 .f32)
    (x3 : Vec Ideal S128x128 .f32) (x4 : Vec Ideal S128 .f32) (p : Fin 2000) (q : Fin 128) :
    rowsVal (F := Ideal) x0 x1 x2 x3 x4 (ix2 p q)
      = entry (fun c p j => x0 (ix3 c p j)) (fun j k c => x1 (ix3 j k c)) (fun k c => x2 (ix2 k c))
          (fun k q => x3 (ix2 k q)) (fun q => x4 (ix1 q)) p q := by
  unfold rowsVal k0_pay1 k0_pay2 k0_pay3 k0_pay4
  dsimp only
  refine (affine_apply dot_S2000x128_S128x128_S2000x128_1_0_0_1_n_n_wf _ _ _ broadcasts_S1x128_S2000x128 p q).trans ?_
  unfold entry
  refine congrArg₂ (fun u v : EReal => u + v) (Finset.sum_congr rfl fun k _ => congrArg₂ (fun u v : EReal => u * v) ?_ ?_) ?_
  · refine Eq.trans ?_ (merged_from_zero _ _ _ p k)
    rw [addf_apply, addf_apply, addf_apply, addf_apply]
    refine congrArg₂ (fun u v : EReal => u + v) (congrArg₂ (fun u v : EReal => u + v)
      (congrArg₂ (fun u v : EReal => u + v) (congrArg₂ (fun u v : EReal => u + v) rfl ?_) ?_) ?_) ?_
    · refine (channel_piece _ _ _ p k).trans ?_
      unfold channel
      simp only [View.ld, rAgg0_idx, rW0_idx, rB0_idx]
    · refine (channel_piece _ _ _ p k).trans ?_
      unfold channel
      simp only [View.ld, rAgg1_idx, rW1_idx, rB1_idx]
    · refine (channel_piece _ _ _ p k).trans ?_
      unfold channel
      simp only [View.ld, rAgg2_idx, rW2_idx, rB2_idx]
    · refine (channel_piece _ _ _ p k).trans ?_
      unfold channel
      simp only [View.ld, rAgg3_idx, rW3_idx, rB3_idx]
  · rw [shapeCast_self, View.ld_unit_zero zeros2]
  · rw [shapeCast_a_1a_apply, View.ld_unit_zero zeros1]

end Cert.KernelIdeal.Block

end
-- ==== Proof.KernelArray.lean ====
/-
  The result array after the run, as one function of the arrays the region finds.

  Point `t` of the grid writes rows 2000·t … 2000·t + 1999 of the result. What it writes is the specification's
  `entry` of its blocks; the aggregate block holds the same rows of the stacked aggregates, and the other four blocks
  are whole arrays, so the block written is the block of ONE whole-array function, `wholeOut`. The 25 blocks tile
  the 50000 rows, hence the array ends at `wholeOut`.
-/
import proofs.«111348_j6519760355566_1_alg».proof.Proof.KernelBlock
import Idealize.ShloMosaic.Lib.Pipeline.Value

set_option maxRecDepth 16384

noncomputable section

namespace Cert.KernelIdeal.Whole

open Cert.KernelIdeal Cert.KernelIdeal.Gen Cert.KernelIdeal.Frame Cert.KernelIdeal.Block Cert.MergeSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as a function of five arrays: at node `r`, feature `q`, the specification's entry of the stacked
    aggregates, the channel weights and biases, the transposed final weights and the final bias. -/
def wholeOf (a35 : S4x50000x128.Idx → EReal) (a2 : S128x128x4.Idx → EReal) (a3 : S128x4.Idx → EReal)
    (a36 : S128x128.Idx → EReal) (a5 : S128.Idx → EReal) : S50000x128.Idx → EReal := fun i =>
  entry (R := 50000) (fun ch r j => a35 (ix3 ch r j)) (fun j k ch => a2 (ix3 j k ch)) (fun k ch => a3 (ix2 k ch))
    (fun k q => a36 (ix2 k q)) (fun q => a5 (ix1 q)) (i 0) (i 1)

/-- The result array of the run: `wholeOf` the arrays as the region finds them. -/
def wholeOut (c : Dev nD) : S50000x128.Idx → EReal :=
  wholeOf (V m c main_v35) (V m c main_arg2) (V m c main_arg3) (V m c main_v36) (V m c main_arg5)

/-- Where the windows' blocks sit at point `t`: the aggregate block and the output block at block row `t`, the
    four parameter windows at their one block. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- From blocks that agree with five whole arrays at the right places to the whole-array function. -/
theorem entry_of_blocks (x0 : Vec Ideal S4x2000x128 .f32) (x1 : Vec Ideal S128x128x4 .f32) (x2 : Vec Ideal S128x4 .f32)
    (x3 : Vec Ideal S128x128 .f32) (x4 : Vec Ideal S128 .f32)
    (a35 : S4x50000x128.Idx → EReal) (a2 : S128x128x4.Idx → EReal) (a3 : S128x4.Idx → EReal)
    (a36 : S128x128.Idx → EReal) (a5 : S128.Idx → EReal) (p : Fin 2000) (q : Fin 128) (i : S50000x128.Idx)
    (h0 : ∀ ch j, x0 (ix3 ch p j) = a35 (ix3 ch (i 0) j)) (h1 : ∀ j k ch, x1 (ix3 j k ch) = a2 (ix3 j k ch))
    (h2 : ∀ k ch, x2 (ix2 k ch) = a3 (ix2 k ch)) (h3 : ∀ k, x3 (ix2 k q) = a36 (ix2 k (i 1))) (h4 : x4 (ix1 q) = a5 (ix1 (i 1))) :
    rowsVal (F := Ideal) x0 x1 x2 x3 x4 (ix2 p q) = wholeOf a35 a2 a3 a36 a5 i :=
  (rowsVal_apply x0 x1 x2 x3 x4 p q).trans
    (entry_congr _ (fun ch r j => a35 (ix3 ch r j)) _ (fun j k ch => a2 (ix3 j k ch)) _ (fun k ch => a3 (ix2 k ch)) _
      (fun k q => a36 (ix2 k q)) _ (fun q => a5 (ix1 q)) p (i 0) q (i 1) h0 h1 h2 h3 h4)

/-- Block `t` of five whole arrays gives block `t` of the whole-array function. -/
theorem block_of_whole (a35 : S4x50000x128.Idx → EReal) (a2 : S128x128x4.Idx → EReal) (a3 : S128x4.Idx → EReal)
    (a36 : S128x128.Idx → EReal) (a5 : S128.Idx → EReal) (t : Fin cfg0.N) (p : Fin 2000) (q : Fin 128) :
    rowsVal (F := Ideal) (((cfg0.win 0).blk t).view.read (Elt Ideal) a35) (((cfg0.win 1).blk t).view.read (Elt Ideal) a2)
        (((cfg0.win 2).blk t).view.read (Elt Ideal) a3) (((cfg0.win 3).blk t).view.read (Elt Ideal) a36)
        (((cfg0.win 4).blk t).view.read (Elt Ideal) a5) (ix2 p q)
      = wholeOf a35 a2 a3 a36 a5 (((cfg0.win 5).blk t).view.emb (ix2 p q)) := by
  obtain ⟨e00, e01, e02, e10, e11, e12, e20, e21, e30, e31, e40, e50, e51⟩ := idx_facts t
  refine entry_of_blocks _ _ _ _ _ a35 a2 a3 a36 a5 p q _ ?_ ?_ ?_ ?_ ?_
  · intro ch j
    show a35 (((cfg0.win 0).blk t).view.emb (ix3 ch p j)) = a35 (ix3 ch _ j)
    refine congrArg a35 (funext fun a => Fin.ext ?_)
    match a with
    | ⟨0, _⟩ => show win0_0.index t (0 : Fin 3) * 4 + 1 * ch.val = ch.val; omega
    | ⟨1, _⟩ => show win0_0.index t (1 : Fin 3) * 2000 + 1 * p.val = win0_5.index t (0 : Fin 2) * 2000 + 1 * p.val; omega
    | ⟨2, _⟩ => show win0_0.index t (2 : Fin 3) * 128 + 1 * j.val = j.val; omega
  · intro j k ch
    show a2 (((cfg0.win 1).blk t).view.emb (ix3 j k ch)) = a2 (ix3 j k ch)
    refine congrArg a2 (funext fun a => Fin.ext ?_)
    match a with
    | ⟨0, _⟩ => show win0_1.index t (0 : Fin 3) * 128 + 1 * j.val = j.val; omega
    | ⟨1, _⟩ => show win0_1.index t (1 : Fin 3) * 128 + 1 * k.val = k.val; omega
    | ⟨2, _⟩ => show win0_1.index t (2 : Fin 3) * 4 + 1 * ch.val = ch.val; omega
  · intro k ch
    show a3 (((cfg0.win 2).blk t).view.emb (ix2 k ch)) = a3 (ix2 k ch)
    refine congrArg a3 (funext fun a => Fin.ext ?_)
    match a with
    | ⟨0, _⟩ => show win0_2.index t (0 : Fin 2) * 128 + 1 * k.val = k.val; omega
    | ⟨1, _⟩ => show win0_2.index t (1 : Fin 2) * 4 + 1 * ch.val = ch.val; omega
  · intro k
    show a36 (((cfg0.win 3).blk t).view.emb (ix2 k q)) = a36 (ix2 k _)
    refine congrArg a36 (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show a5 (((cfg0.win 4).blk t).view.emb (ix1 q)) = a5 (ix1 _)
    refine congrArg a5 (funext fun a => Fin.ext ?_)
    match a with
    | ⟨0, _⟩ => show win0_4.index t (0 : Fin 1) * 128 + 1 * q.val = win0_5.index t (1 : Fin 2) * 128 + 1 * q.val; omega

/-- The output window is never cut: what a write-back writes of a buffer holding `X` is `X`. -/
theorem cut_out_apply (X : Vec Ideal S2000x128 .f32) (t : Fin cfg0.N) (p : Fin 2000) (q : Fin 128) :
    (cfg0.win 5).cut (grid0.coords t) X (ix2 p q) = X (ix2 p q) := rfl

/-- Block `t` of an array `G` read at a block index is `G` at the index's place in the array. -/
theorem read_out_apply (G : S50000x128.Idx → EReal) (t : Fin cfg0.N) (p : Fin 2000) (q : Fin 128) :
    ((cfg0.win 5).blk t).view.read (Elt Ideal) G (ix2 p q) = G (((cfg0.win 5).blk t).view.emb (ix2 p q)) := rfl

/-- What point `t` writes back is block `t` of `wholeOut`. -/
theorem flushed_eq (c : Dev nD) (t : Fin cfg0.N) :
    (dats m 0 c).flushed 5 t = ((cfg0.win 5).blk t).view.read (Elt Ideal) (wholeOut m c) := by
  show (cfg0.win 5).cut (grid0.coords t) ((dats m 0 c).after 5 t) = _
  rw [after_out]
  unfold rowsOut
  rw [View.canon_unit_zero zeros2]
  funext y
  obtain ⟨p, q, rfl⟩ : ∃ (p : Fin 2000) (q : Fin 128), y = ix2 p q := ⟨y 0, y 1, eq_ix2 y⟩
  refine (cut_out_apply _ t p q).trans ?_
  refine Eq.trans ?_ (read_out_apply (wholeOut m c) t p q).symm
  exact block_of_whole (V m c main_v35) (V m c main_arg2) (V m c main_arg3) (V m c main_v36) (V m c main_arg5) t p q

/-- An index of the result array is in point `t`'s block iff each coordinate is in the block's range. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v37).slice (win0_5.rect t)).set ↔ _
  rw [View.set_slice_whole, Rect.mem_set_unit]
  exact Iff.rfl

/-- Every row is in some point's block: row `r` in the block of point `r / 2000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_5 _, ?_⟩
  rw [mem_blk]
  obtain ⟨-, -, -, -, -, -, -, -, -, -, -, e50, e51⟩ := idx_facts ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e50]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [e51]; omega

/-- The result array after the run. -/
theorem final (c : Dev nD) : (dats m 0 c).arrAt 5 cfg0.N = wholeOut m c :=
  (dats m 0 c).arrAt_eq_of_cover 5 (wholeOut m c) (fun t _ => flushed_eq m c t) cover

/-- The kernel's run: the result array ends at `wholeOut`, the arguments as launched. -/
theorem run : θ_run defs (onTc (τ := τ) (main (F := Ideal))) ⟨m, fun _ => 0, ρ⟩ fun r => ∀ c : Dev nD,
      r.2.mem ((c.tc : Thread nD τ).loc main_v37) = wholeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 5).trans (final m c), args_kept m (dats m) (A_eq m) r h c⟩) (run_main m ρ)

end Cert.KernelIdeal.Whole

end
-- ==== Proof.HostSide.lean ====
/-
  What the host operations before the region leave in the two arrays the kernel reads that are not arguments.

  The stacked aggregates [4, 50000, 128]: for each channel `k` the source rows are gathered (an index below zero
  wrapped by 50000 first), each edge's row scaled by the edge's weight for channel `k`, and the scaled rows
  scatter-added into a zero [50000, 128] array at the destination nodes; the four results are given a leading unit
  axis and concatenated. So entry `(k, r, j)` of the stack is entry `(r, j)` of channel `k`'s aggregate.
  The final weights are transposed.
-/
import proofs.«111348_j6519760355566_1_alg».proof.Proof.FrameIdeal
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostSide

open Cert.KernelIdeal Cert.KernelIdeal.Gen Cert.KernelIdeal.Frame
open Idealize.ShloMosaic Idealize.ShloMosaic.TcCoe Idealize.ShloMosaic.ValueIdx Idealize.SL.Sem Idealize.ShloMosaic.StableHlo

/-- The gathered source rows: `node_state[src]`, a negative index wrapped by the number of nodes. -/
def sources (x0 : (⟨S50000x128, .f32⟩ : BufTy).Contents (Elt Ideal)) (x6 : (⟨S800000, .i32⟩ : BufTy).Contents (Elt Ideal)) :
    (⟨S800000x128, .f32⟩ : BufTy).Contents (Elt Ideal) :=
  Host.gather gather_S50000x128_S800000x1_S800000x128_1_0_n_n_0_1_1128 x0
    (broadcastInDim S800000x1 ![0] bcast_S800000_S800000x1_0
      (select (cmpi .slt x6 (broadcastInDim S800000 ![] bcast_S_S800000 (constantI S_ 32 0#32)))
        (addi x6 (broadcastInDim S800000 ![] bcast_S_S800000 (constantI S_ 32 50000#32))) x6))

/-- One channel's aggregate from the edge weights' column `col` (already sliced out and laid along the features). -/
def aggregate (x0 : (⟨S50000x128, .f32⟩ : BufTy).Contents (Elt Ideal)) (col : (⟨S800000x1, .f32⟩ : BufTy).Contents (Elt Ideal))
    (x6 x7 : (⟨S800000, .i32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x7)
    (mulf (sources x0 x6) (broadcastInDim S800000x128 ![0, 1] bcast_S800000x1_S800000x128_0_1 col))

/-- The four channels' aggregates. -/
def agg0 (x0 : (⟨S50000x128, .f32⟩ : BufTy).Contents (Elt Ideal)) (x1 : (⟨S800000x4, .f32⟩ : BufTy).Contents (Elt Ideal))
    (x6 x7 : (⟨S800000, .i32⟩ : BufTy).Contents (Elt Ideal)) : (⟨S50000x128, .f32⟩ : BufTy).Contents (Elt Ideal) :=
  aggregate x0 (extractStridedSlice S800000x1 ![0, 0] x1 slices_S800000x4_S800000x1_0_0) x6 x7
def agg1 (x0 : (⟨S50000x128, .f32⟩ : BufTy).Contents (Elt Ideal)) (x1 : (⟨S800000x4, .f32⟩ : BufTy).Contents (Elt Ideal))
    (x6 x7 : (⟨S800000, .i32⟩ : BufTy).Contents (Elt Ideal)) : (⟨S50000x128, .f32⟩ : BufTy).Contents (Elt Ideal) :=
  aggregate x0 (extractStridedSlice S800000x1 ![0, 1] x1 slices_S800000x4_S800000x1_0_1) x6 x7
def agg2 (x0 : (⟨S50000x128, .f32⟩ : BufTy).Contents (Elt Ideal)) (x1 : (⟨S800000x4, .f32⟩ : BufTy).Contents (Elt Ideal))
    (x6 x7 : (⟨S800000, .i32⟩ : BufTy).Contents (Elt Ideal)) : (⟨S50000x128, .f32⟩ : BufTy).Contents (Elt Ideal) :=
  aggregate x0 (extractStridedSlice S800000x1 ![0, 2] x1 slices_S800000x4_S800000x1_0_2) x6 x7
def agg3 (x0 : (⟨S50000x128, .f32⟩ : BufTy).Contents (Elt Ideal)) (x1 : (⟨S800000x4, .f32⟩ : BufTy).Contents (Elt Ideal))
    (x6 x7 : (⟨S800000, .i32⟩ : BufTy).Contents (Elt Ideal)) : (⟨S50000x128, .f32⟩ : BufTy).Contents (Elt Ideal) :=
  aggregate x0 (extractStridedSlice S800000x1 ![0, 3] x1 slices_S800000x4_S800000x1_0_3) x6 x7

variable (m : (ℓ : Loc nD τ sig) → Buf (Elt Ideal) ℓ)

/-- The transposed final weights, as the region finds them. -/
theorem finalT_eq (c : Dev nD) :
    (V m c main_v36 : S128x128.Idx → EReal)
      = transpose S128x128 [1, 0] (m ((c : Thread nD τ).loc main_arg4)) transposes_S128x128_S128x128_1_0 := by
  dsimp only [V, hostOps0]
  after_results_simp

/-- The last two host operations: the stack of the four aggregates, and the transpose of the final weights. -/
abbrev stackOp : HloOp τ sig (Elt Ideal) :=
  StableHlo.nary ![main_v31, main_v32, main_v33, main_v34] main_v35 (fun u => concatenate S4x50000x128 0 [⟨S1x50000x128, u 0⟩, ⟨S1x50000x128, u 1⟩, ⟨S1x50000x128, u 2⟩, ⟨S1x50000x128, u 3⟩] concatenates_S1x50000x128_S1x50000x128_S1x50000x128_S1x50000x128_S4x50000x128_d0)
abbrev transposeOp : HloOp τ sig (Elt Ideal) :=
  StableHlo.unary main_arg4 main_v36 ((transpose S128x128 [1, 0] · transposes_S128x128_S128x128_1_0) : (⟨S128x128, .f32⟩ : BufTy).Contents (Elt Ideal) → (⟨S128x128, .f32⟩ : BufTy).Contents (Elt Ideal))

/-- After those two operations, from any contents `F`, the stack's buffer holds the concatenation of what the four
    pieces' buffers hold (neither operation writes a piece). -/
theorem last_two (F : Valuation τ sig (Elt Ideal)) :
    (transposeOp.result (stackOp.result F) (Proc.devRef .tc main_v35) : S4x50000x128.Idx → EReal)
      = concatenate S4x50000x128 0
          [⟨S1x50000x128, transposeOp.result (stackOp.result F) (Proc.devRef .tc main_v31)⟩,
           ⟨S1x50000x128, transposeOp.result (stackOp.result F) (Proc.devRef .tc main_v32)⟩,
           ⟨S1x50000x128, transposeOp.result (stackOp.result F) (Proc.devRef .tc main_v33)⟩,
           ⟨S1x50000x128, transposeOp.result (stackOp.result F) (Proc.devRef .tc main_v34)⟩] concatenates_S1x50000x128_S1x50000x128_S1x50000x128_S1x50000x128_S4x50000x128_d0 := by
  simp (disch := decide) only [transposeOp, stackOp, StableHlo.unary_result_ne', StableHlo.nary_result', StableHlo.nary_result_ne']
  rfl

/-- The stack, as the region finds it, is the concatenation of the four pieces as the region finds them. -/
theorem stacked_pieces (c : Dev nD) :
    (V m c main_v35 : S4x50000x128.Idx → EReal)
      = concatenate S4x50000x128 0
          [⟨S1x50000x128, V m c main_v31⟩, ⟨S1x50000x128, V m c main_v32⟩, ⟨S1x50000x128, V m c main_v33⟩, ⟨S1x50000x128, V m c main_v34⟩] concatenates_S1x50000x128_S1x50000x128_S1x50000x128_S1x50000x128_S4x50000x128_d0 :=
  last_two _

/-- Each piece is a channel's aggregate with a leading unit axis. -/
theorem piece0 (c : Dev nD) : (V m c main_v31 : S1x50000x128.Idx → EReal)
    = broadcastInDim S1x50000x128 ![1, 2] bcast_S50000x128_S1x50000x128_1_2 (agg0 (m ((c : Thread nD τ).loc main_arg0)) (m ((c : Thread nD τ).loc main_arg1)) (m ((c : Thread nD τ).loc main_arg6)) (m ((c : Thread nD τ).loc main_arg7))) := by
  dsimp only [V, hostOps0]
  after_results_simp
  all_goals rfl
theorem piece1 (c : Dev nD) : (V m c main_v32 : S1x50000x128.Idx → EReal)
    = broadcastInDim S1x50000x128 ![1, 2] bcast_S50000x128_S1x50000x128_1_2 (agg1 (m ((c : Thread nD τ).loc main_arg0)) (m ((c : Thread nD τ).loc main_arg1)) (m ((c : Thread nD τ).loc main_arg6)) (m ((c : Thread nD τ).loc main_arg7))) := by
  dsimp only [V, hostOps0]
  after_results_simp
  all_goals rfl
theorem piece2 (c : Dev nD) : (V m c main_v33 : S1x50000x128.Idx → EReal)
    = broadcastInDim S1x50000x128 ![1, 2] bcast_S50000x128_S1x50000x128_1_2 (agg2 (m ((c : Thread nD τ).loc main_arg0)) (m ((c : Thread nD τ).loc main_arg1)) (m ((c : Thread nD τ).loc main_arg6)) (m ((c : Thread nD τ).loc main_arg7))) := by
  dsimp only [V, hostOps0]
  after_results_simp
  all_goals rfl
theorem piece3 (c : Dev nD) : (V m c main_v34 : S1x50000x128.Idx → EReal)
    = broadcastInDim S1x50000x128 ![1, 2] bcast_S50000x128_S1x50000x128_1_2 (agg3 (m ((c : Thread nD τ).loc main_arg0)) (m ((c : Thread nD τ).loc main_arg1)) (m ((c : Thread nD τ).loc main_arg6)) (m ((c : Thread nD τ).loc main_arg7))) := by
  dsimp only [V, hostOps0]
  after_results_simp
  all_goals rfl

/-- A [50000, 128] array given a leading unit axis reads, at `(0, r, j)`, the array at `(r, j)`. -/
theorem lead_apply {α : Type} (y : S50000x128.Idx → α) (r : Fin 50000) (j : Fin 128) :
    broadcastInDim S1x50000x128 ![1, 2] bcast_S50000x128_S1x50000x128_1_2 y (ix3 (0 : Fin 1) r j) = y (ix2 r j) :=
  broadcastInDim_apply _ bcast_S50000x128_S1x50000x128_1_2 y _ (ix2 r j) (fun a => by
    match a with
    | ⟨0, _⟩ => show r.val = if (50000 : ℕ) = 1 then 0 else r.val; rw [if_neg (by decide)]
    | ⟨1, _⟩ => show j.val = if (128 : ℕ) = 1 then 0 else j.val; rw [if_neg (by decide)])

/-- Four [1, 50000, 128] pieces concatenated along the leading axis read, at `(ch, r, j)`, piece `ch` at `(0, r, j)`. -/
theorem stack_apply {α : Type} (X0 X1 X2 X3 : S1x50000x128.Idx → α) (ch : Fin 4) (r : Fin 50000) (j : Fin 128) :
    concatenate S4x50000x128 0 [⟨S1x50000x128, X0⟩, ⟨S1x50000x128, X1⟩, ⟨S1x50000x128, X2⟩, ⟨S1x50000x128, X3⟩] concatenates_S1x50000x128_S1x50000x128_S1x50000x128_S1x50000x128_S4x50000x128_d0 (ix3 ch r j)
      = (match ch with | 0 => X0 | 1 => X1 | 2 => X2 | 3 => X3) (ix3 (0 : Fin 1) r j) := by
  match ch with
  | ⟨0, _⟩ =>
    exact concatenate_apply_piece (0 : Fin S4x50000x128.rank) [⟨S1x50000x128, X0⟩, ⟨S1x50000x128, X1⟩, ⟨S1x50000x128, X2⟩, ⟨S1x50000x128, X3⟩] concatenates_S1x50000x128_S1x50000x128_S1x50000x128_S1x50000x128_S4x50000x128_d0 (ix3 (0 : Fin 4) r j) 0 (by show (0 : ℕ) < 4; omega) S1x50000x128 X0 rfl rfl 0 rfl
      (ix3 (0 : Fin 1) r j) (fun b hb => by
        match b with
        | ⟨0, _⟩ => exact absurd rfl hb
        | ⟨1, _⟩ => rfl
        | ⟨2, _⟩ => rfl) rfl
  | ⟨1, _⟩ =>
    exact concatenate_apply_piece (0 : Fin S4x50000x128.rank) [⟨S1x50000x128, X0⟩, ⟨S1x50000x128, X1⟩, ⟨S1x50000x128, X2⟩, ⟨S1x50000x128, X3⟩] concatenates_S1x50000x128_S1x50000x128_S1x50000x128_S1x50000x128_S4x50000x128_d0 (ix3 (1 : Fin 4) r j) 1 (by show (1 : ℕ) < 4; omega) S1x50000x128 X1 rfl rfl 1 rfl
      (ix3 (0 : Fin 1) r j) (fun b hb => by
        match b with
        | ⟨0, _⟩ => exact absurd rfl hb
        | ⟨1, _⟩ => rfl
        | ⟨2, _⟩ => rfl) rfl
  | ⟨2, _⟩ =>
    exact concatenate_apply_piece (0 : Fin S4x50000x128.rank) [⟨S1x50000x128, X0⟩, ⟨S1x50000x128, X1⟩, ⟨S1x50000x128, X2⟩, ⟨S1x50000x128, X3⟩] concatenates_S1x50000x128_S1x50000x128_S1x50000x128_S1x50000x128_S4x50000x128_d0 (ix3 (2 : Fin 4) r j) 2 (by show (2 : ℕ) < 4; omega) S1x50000x128 X2 rfl rfl 2 rfl
      (ix3 (0 : Fin 1) r j) (fun b hb => by
        match b with
        | ⟨0, _⟩ => exact absurd rfl hb
        | ⟨1, _⟩ => rfl
        | ⟨2, _⟩ => rfl) rfl
  | ⟨3, _⟩ =>
    exact concatenate_apply_piece (0 : Fin S4x50000x128.rank) [⟨S1x50000x128, X0⟩, ⟨S1x50000x128, X1⟩, ⟨S1x50000x128, X2⟩, ⟨S1x50000x128, X3⟩] concatenates_S1x50000x128_S1x50000x128_S1x50000x128_S1x50000x128_S4x50000x128_d0 (ix3 (3 : Fin 4) r j) 3 (by show (3 : ℕ) < 4; omega) S1x50000x128 X3 rfl rfl 3 rfl
      (ix3 (0 : Fin 1) r j) (fun b hb => by
        match b with
        | ⟨0, _⟩ => exact absurd rfl hb
        | ⟨1, _⟩ => rfl
        | ⟨2, _⟩ => rfl) rfl

/-- The four channels' aggregates as one family indexed by channel, node and feature. -/
def aggK (x0 : (⟨S50000x128, .f32⟩ : BufTy).Contents (Elt Ideal)) (x1 : (⟨S800000x4, .f32⟩ : BufTy).Contents (Elt Ideal))
    (x6 x7 : (⟨S800000, .i32⟩ : BufTy).Contents (Elt Ideal)) : Fin 4 → Fin 50000 → Fin 128 → EReal := fun ch r j =>
  match ch with
  | 0 => agg0 x0 x1 x6 x7 (ix2 r j)
  | 1 => agg1 x0 x1 x6 x7 (ix2 r j)
  | 2 => agg2 x0 x1 x6 x7 (ix2 r j)
  | 3 => agg3 x0 x1 x6 x7 (ix2 r j)

/-- Entry `(ch, r, j)` of the stack the region finds is entry `(r, j)` of channel `ch`'s aggregate. -/
theorem stacked_apply (c : Dev nD) (ch : Fin 4) (r : Fin 50000) (j : Fin 128) :
    (V m c main_v35 : S4x50000x128.Idx → EReal) (ix3 ch r j) = aggK (m ((c : Thread nD τ).loc main_arg0)) (m ((c : Thread nD τ).loc main_arg1)) (m ((c : Thread nD τ).loc main_arg6)) (m ((c : Thread nD τ).loc main_arg7)) ch r j := by
  rw [stacked_pieces, stack_apply, piece0, piece1, piece2, piece3]
  match ch with
  | ⟨0, _⟩ => exact lead_apply _ r j
  | ⟨1, _⟩ => exact lead_apply _ r j
  | ⟨2, _⟩ => exact lead_apply _ r j
  | ⟨3, _⟩ => exact lead_apply _ r j

end Cert.KernelIdeal.HostSide

end
-- ==== Proof.RefEntries.lean ====
/-
  The reference, entry by entry.

  The reference gathers, weights and scatter-adds the messages per channel exactly as the kernel's host code does
  (those four arrays are left unopened here), runs each through a dense layer and a rectifier on the whole
  [50000, 128] array, adds the four up, and applies the final dense layer. Read at node `r` and output feature `q`
  this is the specification's `entry` of the four aggregate arrays, the channel weights and biases, the transposed
  final weights and the final bias: each `dot_general` is a plain sum over the contracted axis.
-/
import proofs.«111348_j6519760355566_1_alg».proof.Proof.Gen.ReferenceIdeal.Read
import proofs.«111348_j6519760355566_1_alg».proof.Proof.Spec
import Idealize.ShloMosaic.Lib.ValueIdx

set_option maxRecDepth 16384

noncomputable section

namespace Cert.ReferenceIdeal.Entries

open Cert.ReferenceIdeal Cert.ReferenceIdeal.Gen Cert.ReferenceIdeal.Read Cert.MergeSpec
open Idealize.ShloMosaic Idealize.ShloMosaic.ValueIdx

/-- Channel 0 of the reference at node `r`, hidden feature `k`. -/
theorem ref_channel0 (x0 : (⟨S50000x128, .f32⟩ : BufTy).Contents (Elt Ideal)) (x1 : (⟨S800000x4, .f32⟩ : BufTy).Contents (Elt Ideal)) (x2 : (⟨S128x128x4, .f32⟩ : BufTy).Contents (Elt Ideal)) (x3 : (⟨S128x4, .f32⟩ : BufTy).Contents (Elt Ideal)) (x6 x7 : (⟨S800000, .i32⟩ : BufTy).Contents (Elt Ideal)) (r : Fin 50000) (k : Fin 128) :
    val_main_v21 (F := Ideal) x0 x1 x2 x3 x6 x7 (ix2 r k)
      = max ((∑ j : Fin 128, val_main_v12 (F := Ideal) x0 x1 x6 x7 (ix2 r j) * x2 (ix3 j k (0 : Fin 4))) + x3 (ix2 k (0 : Fin 4))) zeroWord := by
  rw [val_main_v21_apply, val_main_v20_apply, val_main_v15_apply, val_main_v19_apply, val_main_v18_apply, val_main_v17_apply,
    val_main_v16_apply, val_main_call0_v0_apply, val_main_call0_cst_apply]
  refine congrArg₂ (fun u v : EReal => max (u + v) zeroWord) (Finset.sum_congr rfl fun j _ => ?_) ?_
  · rw [val_main_v14_apply, val_main_v13_apply]
    refine congrArg₂ (fun u v : EReal => u * v) (congrArg _ ?_) (congrArg _ ?_)
    · exact funext fun a => Fin.ext (by
        match a with
        | ⟨0, _⟩ => rfl
        | ⟨1, _⟩ => rfl)
    · exact funext fun a => Fin.ext (by
        have hj := j.isLt
        have hk := k.isLt
        match a with
        | ⟨0, _⟩ => show (j.val * 128 + k.val) / 128 = j.val; omega
        | ⟨1, _⟩ => show (j.val * 128 + k.val) / 1 % 128 = k.val; omega
        | ⟨2, _⟩ => rfl)
  · refine congrArg _ (funext fun a => Fin.ext (by
      match a with
      | ⟨0, _⟩ => show k.val / 1 = k.val; omega
      | ⟨1, _⟩ => rfl))

/-- Channel 1 of the reference at node `r`, hidden feature `k`. -/
theorem ref_channel1 (x0 : (⟨S50000x128, .f32⟩ : BufTy).Contents (Elt Ideal)) (x1 : (⟨S800000x4, .f32⟩ : BufTy).Contents (Elt Ideal)) (x2 : (⟨S128x128x4, .f32⟩ : BufTy).Contents (Elt Ideal)) (x3 : (⟨S128x4, .f32⟩ : BufTy).Contents (Elt Ideal)) (x6 x7 : (⟨S800000, .i32⟩ : BufTy).Contents (Elt Ideal)) (r : Fin 50000) (k : Fin 128) :
    val_main_v36 (F := Ideal) x0 x1 x2 x3 x6 x7 (ix2 r k)
      = max ((∑ j : Fin 128, val_main_v27 (F := Ideal) x0 x1 x6 x7 (ix2 r j) * x2 (ix3 j k (1 : Fin 4))) + x3 (ix2 k (1 : Fin 4))) zeroWord := by
  rw [val_main_v36_apply, val_main_v35_apply, val_main_v30_apply, val_main_v34_apply, val_main_v33_apply, val_main_v32_apply,
    val_main_v31_apply, val_main_call1_v0_apply, val_main_call1_cst_apply]
  refine congrArg₂ (fun u v : EReal => max (u + v) zeroWord) (Finset.sum_congr rfl fun j _ => ?_) ?_
  · rw [val_main_v29_apply, val_main_v28_apply]
    refine congrArg₂ (fun u v : EReal => u * v) (congrArg _ ?_) (congrArg _ ?_)
    · exact funext fun a => Fin.ext (by
        match a with
        | ⟨0, _⟩ => rfl
        | ⟨1, _⟩ => rfl)
    · exact funext fun a => Fin.ext (by
        have hj := j.isLt
        have hk := k.isLt
        match a with
        | ⟨0, _⟩ => show (j.val * 128 + k.val) / 128 = j.val; omega
        | ⟨1, _⟩ => show (j.val * 128 + k.val) / 1 % 128 = k.val; omega
        | ⟨2, _⟩ => rfl)
  · refine congrArg _ (funext fun a => Fin.ext (by
      match a with
      | ⟨0, _⟩ => show k.val / 1 = k.val; omega
      | ⟨1, _⟩ => rfl))

/-- Channel 2 of the reference at node `r`, hidden feature `k`. -/
theorem ref_channel2 (x0 : (⟨S50000x128, .f32⟩ : BufTy).Contents (Elt Ideal)) (x1 : (⟨S800000x4, .f32⟩ : BufTy).Contents (Elt Ideal)) (x2 : (⟨S128x128x4, .f32⟩ : BufTy).Contents (Elt Ideal)) (x3 : (⟨S128x4, .f32⟩ : BufTy).Contents (Elt Ideal)) (x6 x7 : (⟨S800000, .i32⟩ : BufTy).Contents (Elt Ideal)) (r : Fin 50000) (k : Fin 128) :
    val_main_v52 (F := Ideal) x0 x1 x2 x3 x6 x7 (ix2 r k)
      = max ((∑ j : Fin 128, val_main_v43 (F := Ideal) x0 x1 x6 x7 (ix2 r j) * x2 (ix3 j k (2 : Fin 4))) + x3 (ix2 k (2 : Fin 4))) zeroWord := by
  rw [val_main_v52_apply, val_main_v51_apply, val_main_v46_apply, val_main_v50_apply, val_main_v49_apply, val_main_v48_apply,
    val_main_v47_apply, val_main_call2_v0_apply, val_main_call2_cst_apply]
  refine congrArg₂ (fun u v : EReal => max (u + v) zeroWord) (Finset.sum_congr rfl fun j _ => ?_) ?_
  · rw [val_main_v45_apply, val_main_v44_apply]
    refine congrArg₂ (fun u v : EReal => u * v) (congrArg _ ?_) (congrArg _ ?_)
    · exact funext fun a => Fin.ext (by
        match a with
        | ⟨0, _⟩ => rfl
        | ⟨1, _⟩ => rfl)
    · exact funext fun a => Fin.ext (by
        have hj := j.isLt
        have hk := k.isLt
        match a with
        | ⟨0, _⟩ => show (j.val * 128 + k.val) / 128 = j.val; omega
        | ⟨1, _⟩ => show (j.val * 128 + k.val) / 1 % 128 = k.val; omega
        | ⟨2, _⟩ => rfl)
  · refine congrArg _ (funext fun a => Fin.ext (by
      match a with
      | ⟨0, _⟩ => show k.val / 1 = k.val; omega
      | ⟨1, _⟩ => rfl))

/-- Channel 3 of the reference at node `r`, hidden feature `k`. -/
theorem ref_channel3 (x0 : (⟨S50000x128, .f32⟩ : BufTy).Contents (Elt Ideal)) (x1 : (⟨S800000x4, .f32⟩ : BufTy).Contents (Elt Ideal)) (x2 : (⟨S128x128x4, .f32⟩ : BufTy).Contents (Elt Ideal)) (x3 : (⟨S128x4, .f32⟩ : BufTy).Contents (Elt Ideal)) (x6 x7 : (⟨S800000, .i32⟩ : BufTy).Contents (Elt Ideal)) (r : Fin 50000) (k : Fin 128) :
    val_main_v68 (F := Ideal) x0 x1 x2 x3 x6 x7 (ix2 r k)
      = max ((∑ j : Fin 128, val_main_v59 (F := Ideal) x0 x1 x6 x7 (ix2 r j) * x2 (ix3 j k (3 : Fin 4))) + x3 (ix2 k (3 : Fin 4))) zeroWord := by
  rw [val_main_v68_apply, val_main_v67_apply, val_main_v62_apply, val_main_v66_apply, val_main_v65_apply, val_main_v64_apply,
    val_main_v63_apply, val_main_call3_v0_apply, val_main_call3_cst_apply]
  refine congrArg₂ (fun u v : EReal => max (u + v) zeroWord) (Finset.sum_congr rfl fun j _ => ?_) ?_
  · rw [val_main_v61_apply, val_main_v60_apply]
    refine congrArg₂ (fun u v : EReal => u * v) (congrArg _ ?_) (congrArg _ ?_)
    · exact funext fun a => Fin.ext (by
        match a with
        | ⟨0, _⟩ => rfl
        | ⟨1, _⟩ => rfl)
    · exact funext fun a => Fin.ext (by
        have hj := j.isLt
        have hk := k.isLt
        match a with
        | ⟨0, _⟩ => show (j.val * 128 + k.val) / 128 = j.val; omega
        | ⟨1, _⟩ => show (j.val * 128 + k.val) / 1 % 128 = k.val; omega
        | ⟨2, _⟩ => rfl)
  · refine congrArg _ (funext fun a => Fin.ext (by
      match a with
      | ⟨0, _⟩ => show k.val / 1 = k.val; omega
      | ⟨1, _⟩ => rfl))

/-- The four aggregate arrays of the reference as one family. -/
def aggs (x0 : (⟨S50000x128, .f32⟩ : BufTy).Contents (Elt Ideal)) (x1 : (⟨S800000x4, .f32⟩ : BufTy).Contents (Elt Ideal))
    (x6 x7 : (⟨S800000, .i32⟩ : BufTy).Contents (Elt Ideal)) : Fin 4 → Fin 50000 → Fin 128 → EReal := fun c r j =>
  match c with
  | 0 => val_main_v12 (F := Ideal) x0 x1 x6 x7 (ix2 r j)
  | 1 => val_main_v27 (F := Ideal) x0 x1 x6 x7 (ix2 r j)
  | 2 => val_main_v43 (F := Ideal) x0 x1 x6 x7 (ix2 r j)
  | 3 => val_main_v59 (F := Ideal) x0 x1 x6 x7 (ix2 r j)

/-- The reference's result at node `r`, output feature `q`. -/
theorem result_apply (x0 : (⟨S50000x128, .f32⟩ : BufTy).Contents (Elt Ideal)) (x1 : (⟨S800000x4, .f32⟩ : BufTy).Contents (Elt Ideal)) (x2 : (⟨S128x128x4, .f32⟩ : BufTy).Contents (Elt Ideal)) (x3 : (⟨S128x4, .f32⟩ : BufTy).Contents (Elt Ideal)) (x4 : (⟨S128x128, .f32⟩ : BufTy).Contents (Elt Ideal)) (x5 : (⟨S128, .f32⟩ : BufTy).Contents (Elt Ideal)) (x6 x7 : (⟨S800000, .i32⟩ : BufTy).Contents (Elt Ideal)) (r : Fin 50000) (q : Fin 128) :
    val_main_v74 (F := Ideal) x0 x1 x2 x3 x4 x5 x6 x7 (ix2 r q)
      = entry (aggs x0 x1 x6 x7) (fun j k c => x2 (ix3 j k c)) (fun k c => x3 (ix2 k c))
          (fun k q => val_main_v70 (F := Ideal) x4 (ix2 k q)) (fun q => x5 (ix1 q)) r q := by
  rw [val_main_v74_apply, val_main_v71_apply, val_main_v73_apply, val_main_v72_apply]
  unfold entry
  refine congrArg₂ (fun u v : EReal => u + v) (Finset.sum_congr rfl fun k _ => ?_) ?_
  · refine congrArg₂ (fun u v : EReal => u * v) ?_ (congrArg _ ?_)
    · have e : lidx_main_v71 (ix2 r q) k = ix2 r k := funext fun a => Fin.ext (by
        match a with
        | ⟨0, _⟩ => rfl
        | ⟨1, _⟩ => rfl)
      rw [e, val_main_v69_apply, val_main_v53_apply, val_main_v37_apply, ref_channel0, ref_channel1, ref_channel2, ref_channel3]
      rfl
    · exact funext fun a => Fin.ext (by
        match a with
        | ⟨0, _⟩ => rfl
        | ⟨1, _⟩ => rfl)
  · refine congrArg _ (funext fun a => Fin.ext (by
      match a with
      | ⟨0, _⟩ => rfl))

end Cert.ReferenceIdeal.Entries

end
-- ==== Proof.lean ====
/-
  The claims of this certificate.

  Both programs gather the source nodes' rows, scale each edge's row by the edge's weight per channel and scatter-add
  the rows into the destination nodes, channel by channel, with the same host operations; that part of the two
  programs is the same term of the arguments and is never opened. From the four aggregates both compute, at node
  `r` and output feature `q`,
      Σ k, (Σ over the four channels c of max (Σ j, A c r j · W j k c + B k c) 0) · final_w q k + final_b q.
  The reference does it with whole-array products on the host. The kernel stacks the aggregates, transposes the final
  weights, and runs a grid of 25 points, each computing 2000 nodes' rows with products into a zero accumulator and a
  channel sum that starts from a zero block. Over the extended reals a product into zero and the host's product are
  the same plain sum over the contracted axis, and `0 + x = x`; the 25 blocks of rows tile the result. No step
  needs an input to be finite.
  The three frames: the kernel's two (word level and idealized) from the run of its pipeline, whose windows only read
  the arguments; the reference's from its run. The idealization rewrote nothing, so `preserves` is `True`.
-/
import proofs.«111348_j6519760355566_1_alg».proof.Defs
import proofs.«111348_j6519760355566_1_alg».proof.Proof.Gen.Kernel
import proofs.«111348_j6519760355566_1_alg».proof.Proof.Gen.KernelIdeal
import proofs.«111348_j6519760355566_1_alg».proof.Proof.Gen.ReferenceIdeal
import proofs.«111348_j6519760355566_1_alg».proof.Proof.Gen.Pre_finite_inputs
import proofs.«111348_j6519760355566_1_alg».proof.Proof.Gen.ReferenceIdeal.Run
import proofs.«111348_j6519760355566_1_alg».proof.Proof.Gen.ReferenceIdeal.Read
import proofs.«111348_j6519760355566_1_alg».proof.Proof.FrameBits
import proofs.«111348_j6519760355566_1_alg».proof.Proof.KernelArray
import proofs.«111348_j6519760355566_1_alg».proof.Proof.HostSide
import proofs.«111348_j6519760355566_1_alg».proof.Proof.RefEntries
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.MergeSpec

/-! ## The two programs' host parts are one term -/

/-- The reference's four aggregates are the kernel's: the same gather, scaling and scatter-add of the same arguments. -/
theorem aggs_agree (x0 : (⟨Cert.KernelIdeal.S50000x128, .f32⟩ : BufTy).Contents (Elt Ideal)) (x1 : (⟨Cert.KernelIdeal.S800000x4, .f32⟩ : BufTy).Contents (Elt Ideal))
    (x6 x7 : (⟨Cert.KernelIdeal.S800000, .i32⟩ : BufTy).Contents (Elt Ideal)) :
    Cert.ReferenceIdeal.Entries.aggs x0 x1 x6 x7 = Cert.KernelIdeal.HostSide.aggK x0 x1 x6 x7 := by
  funext ch r j
  match ch with
  | ⟨0, _⟩ => rfl
  | ⟨1, _⟩ => rfl
  | ⟨2, _⟩ => rfl
  | ⟨3, _⟩ => rfl

/-! ## The two results are one function of the arguments -/

/-- The reference's result term, at the kernel's arguments, is the array the kernel's run leaves. -/
theorem results_agree (m : (ℓ : Loc Cert.KernelIdeal.nD Cert.KernelIdeal.τ Cert.KernelIdeal.sig) → Buf (Elt Ideal) ℓ) (c : Dev Cert.KernelIdeal.nD) :
    Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.Whole.wholeOut m c := by
  funext i
  obtain ⟨r, q, rfl⟩ : ∃ (r : Fin 50000) (q : Fin 128), i = ix2 r q := ⟨i 0, i 1, eq_ix2 i⟩
  refine (Cert.ReferenceIdeal.Entries.result_apply _ _ _ _ _ _ _ _ r q).trans ?_
  unfold Cert.KernelIdeal.Whole.wholeOut Cert.KernelIdeal.Whole.wholeOf
  refine entry_congr _ _ _ _ _ _ _ _ _ _ r r q q ?_ ?_ ?_ ?_ ?_
  · intro ch j
    rw [aggs_agree]
    exact (Cert.KernelIdeal.HostSide.stacked_apply m c ch r j).symm
  · intro j k ch
    rw [Cert.KernelIdeal.Frame.V_arg m c Cert.KernelIdeal.main_arg2 (Or.inr (Or.inr (Or.inl rfl)))]
  · intro k ch
    rw [Cert.KernelIdeal.Frame.V_arg m c Cert.KernelIdeal.main_arg3 (Or.inr (Or.inr (Or.inr (Or.inl rfl))))]
  · intro k
    rw [Cert.KernelIdeal.HostSide.finalT_eq]
    rfl
  · rw [Cert.KernelIdeal.Frame.V_arg m c Cert.KernelIdeal.main_arg5 (Or.inr (Or.inr (Or.inr (Or.inr (Or.inr (Or.inl rfl))))))]

/-! ## The claims -/

theorem frame_kernel : Cert.frame_Kernel := fun m ρ _ => Cert.Kernel.Frame.frame m ρ

theorem frame_kernelIdeal : Cert.frame_KernelIdeal := fun m ρ _ => Cert.KernelIdeal.Frame.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, the idealized kernel and the idealized reference end with the same
    result array: the kernel's run leaves `wholeOut`, the reference's run its result term, and the two are one
    function of the arguments. -/
theorem algebraic : Cert.algebraic_KernelIdeal_ReferenceIdeal := by
  intro m ρ m' ρ' _ hagree
  refine ⟨fun c => Cert.KernelIdeal.Whole.wholeOut m c, Cert.KernelIdeal.Whole.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v74_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact results_agree m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
